-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_arg7 : FVec F S64x32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x32 .f32) (main_arg6 : FVec F S32 .f32) (main_arg7 : FVec F S64x32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S10000x64 : Shape := ⟨2, ![10000, 64]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 60
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x32, .f32⟩
  | .hbm, ⟨59, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x32, .f32⟩
  | .local _ .vmem, ⟨14, _⟩ => ⟨S1x32, .f32⟩
  | .local _ .vmem, ⟨15, _⟩ => ⟨S64x32, .f32⟩
  | .local _ .vmem, ⟨16, _⟩ => ⟨S10000x32, .f32⟩
  | .local _ .vmem, ⟨17, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Mean.lean ====
/-
  The neighbour mean of a SAGE layer, in its two spellings.

  For every node `r`, the incoming edges' source rows are summed (a gather of the rows named by the edges' sources,
  then a scatter-add to the edges' destinations) and the sum is scaled by the node's in-degree clamped below at one,
  `d r = max (deg r) 1`. One program multiplies the sum by the reciprocal `1 / d r`; the other divides it by `d r`.
  On the extended reals `x / y` is `x · y⁻¹` for every `y ≠ 0`, and `1 / y` is `1 · y⁻¹`, so the two agree at
  every `x` (the infinities included) as soon as `y ≠ 0` — and `y = max _ 1 ≥ 1 > 0`. Nothing is asked of the sum,
  of the degree or of the edge list: the gather and the scatter are the same function on both sides and stay closed.
-/
import proofs.«166108_j49503793054393_2_alg».proof.KernelIdeal
import proofs.«166108_j49503793054393_2_alg».proof.Proof.Gen.KernelIdeal
import Idealize.ShloMosaic.PureOps.Ideal
import Idealize.ShloMosaic.PureOps.Ideal.Laws
import Idealize.ShloMosaic.Lib.IdealHost
import Idealize.ShloMosaic.Lib.Pipeline.Value
import Idealize.ShloMosaic.Lib.ValueIdx

noncomputable section

namespace Cert.Sage

open Idealize.ShloMosaic Idealize.ShloMosaic.ValueIdx Cert.KernelIdeal Cert.KernelIdeal.Gen

/-- The edge list: two rows (sources, destinations) of 1,600,000 node numbers. -/
abbrev Edges := IVec S2x1600000 32
/-- One node number per edge. -/
abbrev EdgeVec := IVec S1600000 32
/-- One extended real per node. -/
abbrev NodeVec := FVec Ideal S100000 .f32
/-- 64 features per node. -/
abbrev Feat := FVec Ideal S100000x64 .f32

/-- Row `k` of the edge list as a vector (`k = 0`: sources, `k = 1`: destinations). -/
def srcRow (e : Edges) : EdgeVec :=
  shapeCast _ (extractStridedSlice S1x1600000 ![0, 0] e slices_S2x1600000_S1x1600000_0_0) shapeCasts_S1x1600000_S1600000
def dstRow (e : Edges) : EdgeVec :=
  shapeCast _ (extractStridedSlice S1x1600000 ![1, 0] e slices_S2x1600000_S1x1600000_1_0) shapeCasts_S1x1600000_S1600000

/-- The constant node vector `1`. -/
def ones : NodeVec := broadcastInDim S100000 ![] bcast_S_S100000 (constant (F := Ideal) S_ .f32 0x3F800000#32)

/-- In-degree clamped below at one: the count of edges into each node (a scatter-add of ones into zeros), then `max · 1`. -/
def degMax (dst : EdgeVec) : NodeVec :=
  maximumf
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    ones

/-- The reciprocal of the clamped in-degree. -/
def invDeg (dst : EdgeVec) : NodeVec := Host.divf (F := Ideal) ones (degMax dst)

/-- The sum over each node's incoming edges of the source node's feature row: sources wrapped once if negative, rows
    gathered, rows scatter-added into zeros at the destinations. -/
def nbrSum (dst src : EdgeVec) (h : Feat) : Feat :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A per-node value repeated along the 64 features. -/
def spread (v : NodeVec) : Feat :=
  broadcastInDim S100000x64 ![0, 1] bcast_S100000x1_S100000x64_0_1 (broadcastInDim S100000x1 ![0] bcast_S100000_S100000x1_0 v)

/-- The mean by a product with a per-node factor. -/
def meanMul (dst src : EdgeVec) (inv : NodeVec) (h : Feat) : Feat := mulf (nbrSum dst src h) (spread inv)
/-- The mean by a quotient by a per-node divisor. -/
def meanDiv (dst src : EdgeVec) (d : NodeVec) (h : Feat) : Feat := Host.divf (F := Ideal) (nbrSum dst src h) (spread d)

/-- The node an entry of the feature array belongs to. -/
abbrev nodeOf (i : S100000x64.Idx) : S100000.Idx := fun a => match a with
  | ⟨0, _⟩ => ⟨(i 0).val, (i 0).isLt⟩

theorem spread_apply (v : NodeVec) (i : S100000x64.Idx) : spread v i = v (nodeOf i) := by
  unfold spread
  let mid : S100000x1.Idx := fun a => match a with
    | ⟨0, _⟩ => ⟨(i 0).val, (i 0).isLt⟩
    | ⟨1, _⟩ => ⟨0, Nat.one_pos⟩
  refine (broadcastInDim_apply _ bcast_S100000x1_S100000x64_0_1 _ i mid (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ bcast_S100000_S100000x1_0 v mid (nodeOf i) (fun a => match a with
    | ⟨0, _⟩ => by show (i 0).val = if (100000 : Nat) = 1 then 0 else (i 0).val; rw [if_neg (by decide)])

theorem ones_apply (j : S100000.Idx) : ones j = (1 : EReal) := by
  unfold ones
  refine (broadcastInDim_apply _ bcast_S_S100000 _ j (fun a => a.elim0) (fun a => a.elim0)).trans ?_
  show Ideal.ofBits .f32 0x3F800000#32 = 1
  exact Ideal.ofBits_one_f32

/-- On the extended reals, multiplying by `1 / y` is dividing by `y`, for `y = max d 1` (which is never zero). -/
theorem mul_inv_clamp (x d : EReal) : x * Ideal.div 1 (max d 1) = Ideal.div x (max d 1) := by
  have h : max d 1 ≠ 0 := ne_of_gt (lt_of_lt_of_le zero_lt_one (le_max_right d 1))
  unfold Ideal.div
  rw [if_neg h, if_neg h, one_mul]

/-- The host's quotient of two arrays, read at an index. -/
theorem hostDivf_apply {s : Shape} {φ : FTy} (a b : FVec Ideal s φ) (i : s.Idx) :
    Host.divf (F := Ideal) a b i = Ideal.div (a i) (b i) := rfl

/-- The two spellings of the mean are one function of the edges and the features. -/
theorem meanMul_eq_meanDiv (dst src : EdgeVec) (h : Feat) :
    meanMul dst src (invDeg dst) h = meanDiv dst src (degMax dst) h := by
  unfold meanMul meanDiv
  generalize nbrSum dst src h = s
  funext i
  rw [mulf_apply, hostDivf_apply, spread_apply, spread_apply]
  unfold invDeg
  rw [hostDivf_apply]
  unfold degMax
  generalize Host.scatterAdd (F := Ideal) scatter_S100000_S1600000x1_S1600000_n_0_0_1 _ _ _ = dg
  rw [maximumf_apply, ones_apply]
  exact mul_inv_clamp _ _

end Cert.Sage

end
-- ==== Proof.Dense1.lean ====
/-
  The dense half of the first SAGE layer, at one entry.

  With `A` the neighbour means, `X` the nodes' own features, `Wl`, `Wr` two 64×64 weight matrices and `b` a bias row,
  entry `(r, c)` of the layer is `max ((∑ₖ A r k · Wl k c) + b c + ∑ₖ X r k · Wr k c) 0`. Row `r` of the result depends on
  row `r` of `A` and of `X` only, so a block of 10,000 consecutive rows of the result is this formula of the same block
  of rows of `A` and `X`: that is what the kernel body computes on the block it is handed (the changes of float format
  on the way into the matrix unit are the identity on extended reals, and the matrix product into a zero accumulator is
  the plain sum over the contracted index).
-/
import proofs.«166108_j49503793054393_2_alg».proof.Proof.Gen.KernelIdeal.Skeleton
import Idealize.ShloMosaic.PureOps.Ideal.Laws
import Idealize.ShloMosaic.Lib.Pipeline.Value
import Idealize.ShloMosaic.Lib.ValueIdx

noncomputable section

namespace Cert.Sage

open Idealize.ShloMosaic Idealize.ShloMosaic.ValueIdx Cert.KernelIdeal Cert.KernelIdeal.Gen

/-- One entry of the layer from a row of means, a row of features, the weights and the bias row. -/
def dense1At {n : Nat} (A X : (⟨2, ![n, 64]⟩ : Shape).Idx → EReal) (Wl Wr : S64x64.Idx → EReal) (b : S1x64.Idx → EReal)
    (r : Fin n) (c : Fin 64) : EReal :=
  max ((∑ k : Fin 64, A (ix2 r k) * Wl (ix2 k c)) + b (ix2 0 c) + ∑ k : Fin 64, X (ix2 r k) * Wr (ix2 k c)) 0

/-- The layer over all 100,000 nodes. -/
def dense1 (A X : FVec Ideal S100000x64 .f32) (Wl Wr : FVec Ideal S64x64 .f32) (b : FVec Ideal S1x64 .f32) :
    FVec Ideal S100000x64 .f32 :=
  fun i => dense1At A X Wl Wr b (i 0) (i 1)

/-- The operand entries a 10000×64 by 64×64 product multiplies for output entry `i` and contracted index `κ`: row `i 0` of
    the left operand at column `κ`, row `κ` of the right operand at column `i 1`. -/
theorem lhs64_0 (i : S10000x64.Idx) (κ : dot_S10000x64_S64x64_S10000x64_1_0_0_1_n_n.contr.Idx) :
    (dot_S10000x64_S64x64_S10000x64_1_0_0_1_n_n.lhsIdx i κ 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhs64_1 (i : S10000x64.Idx) (κ : dot_S10000x64_S64x64_S10000x64_1_0_0_1_n_n.contr.Idx) :
    (dot_S10000x64_S64x64_S10000x64_1_0_0_1_n_n.lhsIdx i κ 1).val = (κ ⟨0, by decide⟩).val :=
  dot_S10000x64_S64x64_S10000x64_1_0_0_1_n_n.lhsIdx_val_of_single rfl i κ
theorem rhs64_0 (i : S10000x64.Idx) (κ : dot_S10000x64_S64x64_S10000x64_1_0_0_1_n_n.contr.Idx) :
    (dot_S10000x64_S64x64_S10000x64_1_0_0_1_n_n.rhsIdx i κ 0).val = (κ ⟨0, by decide⟩).val :=
  dot_S10000x64_S64x64_S10000x64_1_0_0_1_n_n.rhsIdx_val_of_single rfl i κ
theorem rhs64_1 (i : S10000x64.Idx) (κ : dot_S10000x64_S64x64_S10000x64_1_0_0_1_n_n.contr.Idx) :
    (dot_S10000x64_S64x64_S10000x64_1_0_0_1_n_n.rhsIdx i κ 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A 10000×64 by 64×64 matrix product into a zero accumulator, at an entry: the sum over the contracted index. -/
theorem matmul_64x64_apply (l : FVec Ideal S10000x64 .bf16) (w : FVec Ideal S64x64 .bf16) (p : Fin 10000) (q : Fin 64) :
    matmul dot_S10000x64_S64x64_S10000x64_1_0_0_1_n_n none l w (constant (F := Ideal) S10000x64 .f32 0x00000000#32) (ix2 p q)
      = ∑ k : Fin 64, l (ix2 p k) * w (ix2 k q) := by
  simp only [matmul]
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k :=
    funext fun a => Fin.ext (by
      match a with
      | ⟨0, _⟩ => exact lhs64_0 _ _
      | ⟨1, _⟩ => exact (lhs64_1 _ _).trans hk)
  have er : dot_S10000x64_S64x64_S10000x64_1_0_0_1_n_n.rhsIdx (ix2 p q)
      ((contrEquiv1 dot_S10000x64_S64x64_S10000x64_1_0_0_1_n_n 64 rfl rfl).symm k) = ix2 k q :=
    funext fun a => Fin.ext (by
      match a with
      | ⟨0, _⟩ => exact (rhs64_0 _ _).trans hk
      | ⟨1, _⟩ => exact rhs64_1 _ _)
  rw [el, er]

/-- The bias row repeated down 10,000 rows, at an entry. -/
theorem biasRows64_apply (b : FVec Ideal S1x64 .f32) (p : Fin 10000) (q : Fin 64) :
    broadcastTo S10000x64 b broadcasts_S1x64_S10000x64 (ix2 p q) = b (ix2 0 q) :=
  broadcastTo_apply b broadcasts_S1x64_S10000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- What the first kernel body stores, at an entry of its block: the layer's formula of the blocks it loaded. -/
theorem pay0_apply (a x : Vec Ideal S10000x64 .f32) (wl wr : Vec Ideal S64x64 .f32) (b : Vec Ideal S1x64 .f32)
    (p : Fin 10000) (q : Fin 64) :
    k0_pay1 (F := Ideal) a x wl wr b (ix2 p q) = dense1At a x wl wr b p q := by
  unfold k0_pay1 dense1At
  rw [shapeCast_self, shapeCast_self, maximumf_apply, addf_apply, addf_apply, matmul_64x64_apply, matmul_64x64_apply,
    biasRows64_apply, broadcast_apply]
  simp only [truncf_apply]
  show _ = max _ (0 : EReal)
  congr 1
  exact Ideal.ofBits_zero_f32

end Cert.Sage

end
-- ==== Proof.Dense2.lean ====
/-
  The dense half of the second SAGE layer, at one entry.

  With `A` the neighbour means of the hidden features, `H` the hidden features, `Wl`, `Wr` two 64×32 weight matrices and
  `b` a bias row, entry `(r, c)` of the layer is `(∑ₖ A r k · Wl k c) + b c + ∑ₖ H r k · Wr k c` — the first layer's formula
  without the clamp at zero, into 32 columns. As there, row `r` of the result depends on row `r` of `A` and of `H` only,
  and the kernel body computes this formula on the block of 10,000 rows it is handed.
-/
import proofs.«166108_j49503793054393_2_alg».proof.Proof.Gen.KernelIdeal.Skeleton
import Idealize.ShloMosaic.PureOps.Ideal.Laws
import Idealize.ShloMosaic.Lib.Pipeline.Value
import Idealize.ShloMosaic.Lib.ValueIdx

noncomputable section

namespace Cert.Sage

open Idealize.ShloMosaic Idealize.ShloMosaic.ValueIdx Cert.KernelIdeal Cert.KernelIdeal.Gen

/-- One entry of the layer from a row of means, a row of hidden features, the weights and the bias row. -/
def dense2At {n : Nat} (A H : (⟨2, ![n, 64]⟩ : Shape).Idx → EReal) (Wl Wr : S64x32.Idx → EReal) (b : S1x32.Idx → EReal)
    (r : Fin n) (c : Fin 32) : EReal :=
  (∑ k : Fin 64, A (ix2 r k) * Wl (ix2 k c)) + b (ix2 0 c) + ∑ k : Fin 64, H (ix2 r k) * Wr (ix2 k c)

/-- The layer over all 100,000 nodes. -/
def dense2 (A H : FVec Ideal S100000x64 .f32) (Wl Wr : FVec Ideal S64x32 .f32) (b : FVec Ideal S1x32 .f32) :
    FVec Ideal S100000x32 .f32 :=
  fun i => dense2At A H Wl Wr b (i 0) (i 1)

/-- The operand entries a 10000×64 by 64×32 product multiplies for output entry `i` and contracted index `κ`: row `i 0` of
    the left operand at column `κ`, row `κ` of the right operand at column `i 1`. -/
theorem lhs32_0 (i : S10000x32.Idx) (κ : dot_S10000x64_S64x32_S10000x32_1_0_0_1_n_n.contr.Idx) :
    (dot_S10000x64_S64x32_S10000x32_1_0_0_1_n_n.lhsIdx i κ 0).val = (i 0).val := by
  unfold DotDims.lhsIdx
  rw [dif_neg (show ¬(0 : Fin S10000x64.rank) ∈ dot_S10000x64_S64x32_S10000x32_1_0_0_1_n_n.lhsBatch by decide),
    dif_pos (show (0 : Fin S10000x64.rank) ∈ dot_S10000x64_S64x32_S10000x32_1_0_0_1_n_n.lhsNonContracting by decide)]
  rfl
theorem lhs32_1 (i : S10000x32.Idx) (κ : dot_S10000x64_S64x32_S10000x32_1_0_0_1_n_n.contr.Idx) :
    (dot_S10000x64_S64x32_S10000x32_1_0_0_1_n_n.lhsIdx i κ 1).val = (κ ⟨0, by decide⟩).val :=
  dot_S10000x64_S64x32_S10000x32_1_0_0_1_n_n.lhsIdx_val_of_single rfl i κ
theorem rhs32_0 (i : S10000x32.Idx) (κ : dot_S10000x64_S64x32_S10000x32_1_0_0_1_n_n.contr.Idx) :
    (dot_S10000x64_S64x32_S10000x32_1_0_0_1_n_n.rhsIdx i κ 0).val = (κ ⟨0, by decide⟩).val :=
  dot_S10000x64_S64x32_S10000x32_1_0_0_1_n_n.rhsIdx_val_of_single rfl i κ
theorem rhs32_1 (i : S10000x32.Idx) (κ : dot_S10000x64_S64x32_S10000x32_1_0_0_1_n_n.contr.Idx) :
    (dot_S10000x64_S64x32_S10000x32_1_0_0_1_n_n.rhsIdx i κ 1).val = (i 1).val := by
  unfold DotDims.rhsIdx
  rw [dif_neg (show ¬(1 : Fin S64x32.rank) ∈ dot_S10000x64_S64x32_S10000x32_1_0_0_1_n_n.rhsBatch by decide),
    dif_pos (show (1 : Fin S64x32.rank) ∈ dot_S10000x64_S64x32_S10000x32_1_0_0_1_n_n.rhsNonContracting by decide)]
  rfl

/-- A 10000×64 by 64×32 matrix product into a zero accumulator, at an entry: the sum over the contracted index. -/
theorem matmul_64x32_apply (l : FVec Ideal S10000x64 .bf16) (w : FVec Ideal S64x32 .bf16) (p : Fin 10000) (q : Fin 32) :
    matmul dot_S10000x64_S64x32_S10000x32_1_0_0_1_n_n none l w (constant (F := Ideal) S10000x32 .f32 0x00000000#32) (ix2 p q)
      = ∑ k : Fin 64, l (ix2 p k) * w (ix2 k q) := by
  simp only [matmul]
  rw [Ideal.matmul_constant_zero_apply,
    ← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p q)
      ((contrEquiv1 dot_S10000x64_S64x32_S10000x32_1_0_0_1_n_n 64 rfl rfl).symm k) = ix2 p k :=
    funext fun a => Fin.ext (by
      match a with
      | ⟨0, _⟩ => exact lhs32_0 _ _
      | ⟨1, _⟩ => exact (lhs32_1 _ _).trans hk)
  have er : dot_S10000x64_S64x32_S10000x32_1_0_0_1_n_n.rhsIdx (ix2 p q)
      ((contrEquiv1 dot_S10000x64_S64x32_S10000x32_1_0_0_1_n_n 64 rfl rfl).symm k) = ix2 k q :=
    funext fun a => Fin.ext (by
      match a with
      | ⟨0, _⟩ => exact (rhs32_0 _ _).trans hk
      | ⟨1, _⟩ => exact rhs32_1 _ _)
  rw [el, er]

/-- The bias row repeated down 10,000 rows, at an entry. -/
theorem biasRows32_apply (b : FVec Ideal S1x32 .f32) (p : Fin 10000) (q : Fin 32) :
    broadcastTo S10000x32 b broadcasts_S1x32_S10000x32 (ix2 p q) = b (ix2 0 q) :=
  broadcastTo_apply b broadcasts_S1x32_S10000x32 (ix2 p q) (ix2 0 q) (fun a => match a with
    | ⟨0, _⟩ => by show (0 : Nat) = if (1 : Nat) = 1 then 0 else p.val; rw [if_pos rfl]
    | ⟨1, _⟩ => by show q.val = if (32 : Nat) = 1 then 0 else q.val; rw [if_neg (by decide)])

/-- What the second kernel body stores, at an entry of its block: the layer's formula of the blocks it loaded. -/
theorem pay1_apply (a h : Vec Ideal S10000x64 .f32) (wl wr : Vec Ideal S64x32 .f32) (b : Vec Ideal S1x32 .f32)
    (p : Fin 10000) (q : Fin 32) :
    k1_pay1 (F := Ideal) a h wl wr b (ix2 p q) = dense2At a h wl wr b p q := by
  unfold k1_pay1 dense2At
  rw [shapeCast_self, shapeCast_self, shapeCast_self, addf_apply, addf_apply, matmul_64x32_apply, matmul_64x32_apply,
    biasRows32_apply]
  simp only [truncf_apply]

end Cert.Sage

end
-- ==== Proof.Sage.lean ====
/-
  The two-layer network as one function of the arguments, in both spellings of the mean.

  `h = relu (mean x · W1l + b1 + x · W1r)`, `out = mean h · W2l + b2 + h · W2r`, where `mean` is the neighbour mean over the
  edge list. With the mean spelt as a product with the reciprocal clamped in-degree (`sageMul`) or as a quotient by the
  clamped in-degree (`sageDiv`) the network is the same function: the two means agree on every feature array
  (`meanMul_eq_meanDiv`), in particular on `x` and on `h`.
-/
import proofs.«166108_j49503793054393_2_alg».proof.Proof.Mean
import proofs.«166108_j49503793054393_2_alg».proof.Proof.Dense1
import proofs.«166108_j49503793054393_2_alg».proof.Proof.Dense2

noncomputable section

namespace Cert.Sage

open Idealize.ShloMosaic Idealize.ShloMosaic.ValueIdx Cert.KernelIdeal Cert.KernelIdeal.Gen

/-- A bias vector as a one-row matrix. -/
def biasRow1 (b : FVec Ideal S64 .f32) : FVec Ideal S1x64 .f32 := shapeCast _ b shapeCasts_S64_S1x64
def biasRow2 (b : FVec Ideal S32 .f32) : FVec Ideal S1x32 .f32 := shapeCast _ b shapeCasts_S32_S1x32

/-- Entry `c` of the one row is entry `c` of the vector. -/
theorem biasRow1_apply (b : FVec Ideal S64 .f32) (c : Fin 64) : biasRow1 b (ix2 0 c) = b (ix1 c) :=
  (shapeCast_addUnit_apply ![64] b shapeCasts_S64_S1x64 (ix2 0 c)).trans
    (congrArg b (funext fun a => by match a with | ⟨0, _⟩ => rfl))
theorem biasRow2_apply (b : FVec Ideal S32 .f32) (c : Fin 32) : biasRow2 b (ix2 0 c) = b (ix1 c) :=
  (shapeCast_addUnit_apply ![32] b shapeCasts_S32_S1x32 (ix2 0 c)).trans
    (congrArg b (funext fun a => by match a with | ⟨0, _⟩ => rfl))

/-- The network with the mean as a product with the reciprocal clamped in-degree. -/
def sageMul (x : Feat) (e : Edges) (W1l : FVec Ideal S64x64 .f32) (b1 : FVec Ideal S64 .f32) (W1r : FVec Ideal S64x64 .f32)
    (W2l : FVec Ideal S64x32 .f32) (b2 : FVec Ideal S32 .f32) (W2r : FVec Ideal S64x32 .f32) : FVec Ideal S100000x32 .f32 :=
  dense2 (meanMul (dstRow e) (srcRow e) (invDeg (dstRow e))
      (dense1 (meanMul (dstRow e) (srcRow e) (invDeg (dstRow e)) x) x W1l W1r (biasRow1 b1)))
    (dense1 (meanMul (dstRow e) (srcRow e) (invDeg (dstRow e)) x) x W1l W1r (biasRow1 b1)) W2l W2r (biasRow2 b2)

/-- The network with the mean as a quotient by the clamped in-degree. -/
def sageDiv (x : Feat) (e : Edges) (W1l : FVec Ideal S64x64 .f32) (b1 : FVec Ideal S64 .f32) (W1r : FVec Ideal S64x64 .f32)
    (W2l : FVec Ideal S64x32 .f32) (b2 : FVec Ideal S32 .f32) (W2r : FVec Ideal S64x32 .f32) : FVec Ideal S100000x32 .f32 :=
  dense2 (meanDiv (dstRow e) (srcRow e) (degMax (dstRow e))
      (dense1 (meanDiv (dstRow e) (srcRow e) (degMax (dstRow e)) x) x W1l W1r (biasRow1 b1)))
    (dense1 (meanDiv (dstRow e) (srcRow e) (degMax (dstRow e)) x) x W1l W1r (biasRow1 b1)) W2l W2r (biasRow2 b2)

theorem sageMul_eq_sageDiv (x : Feat) (e : Edges) (W1l : FVec Ideal S64x64 .f32) (b1 : FVec Ideal S64 .f32)
    (W1r : FVec Ideal S64x64 .f32) (W2l : FVec Ideal S64x32 .f32) (b2 : FVec Ideal S32 .f32) (W2r : FVec Ideal S64x32 .f32) :
    sageMul x e W1l b1 W1r W2l b2 W2r = sageDiv x e W1l b1 W1r W2l b2 W2r := by
  unfold sageMul sageDiv
  rw [meanMul_eq_meanDiv, meanMul_eq_meanDiv]

end Cert.Sage

end
-- ==== Proof.KernelRun.lean ====
/-
  The idealized kernel program's run, with every buffer's final contents named.

  The program is two host stretches and two kernel regions, in the order stretch, region, stretch, region. The frame
  proof of this program already walks that chain: from the launch memory, each host stretch leaves its results at the
  stretch's operations folded over the contents before it, and each region leaves its output arrays at what its grid
  points wrote back and every other buffer as it found it. Here the same chain is read to its end without forgetting:
  every weakly fair execution terminates, and every buffer the TensorCore holds ends at the contents of the last
  boundary (`W4`), whatever that buffer is — an argument, an intermediate, or the result.
-/
import proofs.«166108_j49503793054393_2_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped TensorCore buffer ends
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Sage.KRun

end
-- ==== Proof.Region0.lean ====
/-
  What the first kernel region leaves in its output array.

  The region walks ten grid points; at point `t` it is handed rows `10000·t … 10000·t + 9999` of the mean array and of
  the feature array, the two weight matrices and the bias row whole, and writes back rows `10000·t … 10000·t + 9999` of
  the output. A row of the layer depends on the same row of its two row-indexed operands only, so what point `t` writes
  back is block `t` of ONE function of the whole arrays — the layer `dense1` — and the ten blocks cover the output (row
  `r` lies in block `r / 10000`). Hence the output array after the region is `dense1` of the arrays as the region found
  them, whatever those are.
-/
import proofs.«166108_j49503793054393_2_alg».proof.Proof.Gen.KernelIdeal.Frame
import proofs.«166108_j49503793054393_2_alg».proof.Proof.Dense1
import Idealize.ShloMosaic.Lib.Pipeline.Value

set_option maxRecDepth 16384

noncomputable section

namespace Cert.Sage.Region0

open Cert.KernelIdeal Cert.KernelIdeal.Gen Cert.Sage
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs move with the output, the matrices and the bias
    row stay at block 0, and the output's row block at point `t` is `t`. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block of the output is some point's. -/
theorem idx_onto : ∀ (q0 : Fin 10), ∃ t : Fin cfg0.N, win0_5.index t = ![q0.val, 0] :=
  (by decide +kernel : ∀ (q0 : Fin 10), ∃ t : Fin grid0.N, win0_5.index t = ![q0.val, 0])

/-- WHAT POINT `t` WRITES BACK is block `t` of the layer of the arrays as the region finds them. -/
theorem flushed_eq (c : Dev nD) (t : Fin cfg0.N) :
    (dat0 (F := Ideal) V c).flushed 5 t = ((cfg0.win 5).blk t).view.read (Elt Ideal)
      (dense1 (V c main_v24) (V c main_arg0) (V c main_arg2) (V c main_arg4) (V c main_v25)) := by
  show (cfg0.win 5).cut (grid0.coords t) ((dat0 (F := Ideal) V c).after 5 t) = _
  rw [after0_5]
  unfold out0_5
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e51, e50⟩ := idx_facts t
  funext j
  obtain ⟨p, q, rfl⟩ : ∃ (p : Fin 10000) (q : Fin 64), j = ix2 p q := ⟨j 0, j 1, eq_ix2 j⟩
  refine (pay0_apply (iblk0 V c 0 t) (iblk0 V c 1 t) (iblk0 V c 2 t) (iblk0 V c 4 t) (iblk0 V c 3 t) p q).trans ?_
  have hA : ∀ k : Fin 64, iblk0 V c 0 t (ix2 p k)
      = V c main_v24 (ix2 ((((cfg0.win 5).blk t).view.emb (ix2 p q)) 0) k) := fun k => by
    show V c main_v24 (((cfg0.win 0).blk t).view.emb (ix2 p k)) = _
    refine congrArg (V c main_v24) (funext fun a => Fin.ext ?_)
    match a with
    | ⟨0, _⟩ => show win0_0.index t (0 : Fin 2) * 10000 + 1 * p.val = win0_5.index t (0 : Fin 2) * 10000 + 1 * p.val; omega
    | ⟨1, _⟩ => show win0_0.index t (1 : Fin 2) * 64 + 1 * k.val = k.val; omega
  have hX : ∀ k : Fin 64, iblk0 V c 1 t (ix2 p k)
      = V c main_arg0 (ix2 ((((cfg0.win 5).blk t).view.emb (ix2 p q)) 0) k) := fun k => by
    show V c main_arg0 (((cfg0.win 1).blk t).view.emb (ix2 p k)) = _
    refine congrArg (V c main_arg0) (funext fun a => Fin.ext ?_)
    match a with
    | ⟨0, _⟩ => show win0_1.index t (0 : Fin 2) * 10000 + 1 * p.val = win0_5.index t (0 : Fin 2) * 10000 + 1 * p.val; omega
    | ⟨1, _⟩ => show win0_1.index t (1 : Fin 2) * 64 + 1 * k.val = k.val; omega
  have hWl : ∀ k : Fin 64, iblk0 V c 2 t (ix2 k q)
      = V c main_arg2 (ix2 k ((((cfg0.win 5).blk t).view.emb (ix2 p q)) 1)) := fun k => by
    show V c main_arg2 (((cfg0.win 2).blk t).view.emb (ix2 k q)) = _
    refine congrArg (V c main_arg2) (funext fun a => Fin.ext ?_)
    match a with
    | ⟨0, _⟩ => show win0_2.index t (0 : Fin 2) * 64 + 1 * k.val = k.val; omega
    | ⟨1, _⟩ => show win0_2.index t (1 : Fin 2) * 64 + 1 * q.val = win0_5.index t (1 : Fin 2) * 64 + 1 * q.val; omega
  have hWr : ∀ k : Fin 64, iblk0 V c 4 t (ix2 k q)
      = V c main_arg4 (ix2 k ((((cfg0.win 5).blk t).view.emb (ix2 p q)) 1)) := fun k => by
    show V c main_arg4 (((cfg0.win 4).blk t).view.emb (ix2 k q)) = _
    refine congrArg (V c main_arg4) (funext fun a => Fin.ext ?_)
    match a with
    | ⟨0, _⟩ => show win0_4.index t (0 : Fin 2) * 64 + 1 * k.val = k.val; omega
    | ⟨1, _⟩ => show win0_4.index t (1 : Fin 2) * 64 + 1 * q.val = win0_5.index t (1 : Fin 2) * 64 + 1 * q.val; omega
  have hB : iblk0 V c 3 t (ix2 0 q)
      = V c main_v25 (ix2 0 ((((cfg0.win 5).blk t).view.emb (ix2 p q)) 1)) := by
    show V c main_v25 (((cfg0.win 3).blk t).view.emb (ix2 0 q)) = _
    refine congrArg (V c main_v25) (funext fun a => Fin.ext ?_)
    match a with
    | ⟨0, _⟩ => show win0_3.index t (0 : Fin 2) * 1 + 1 * 0 = 0; omega
    | ⟨1, _⟩ => show win0_3.index t (1 : Fin 2) * 64 + 1 * q.val = win0_5.index t (1 : Fin 2) * 64 + 1 * q.val; omega
  show dense1At _ _ _ _ _ p q
    = dense1At (V c main_v24) (V c main_arg0) (V c main_arg2) (V c main_arg4) (V c main_v25)
        ((((cfg0.win 5).blk t).view.emb (ix2 p q)) 0) ((((cfg0.win 5).blk t).view.emb (ix2 p q)) 1)
  unfold dense1At
  refine congrArg (fun z => max z (0 : EReal)) ?_
  refine congrArg₂ (· + ·) (congrArg₂ (· + ·) (Finset.sum_congr rfl fun k _ => congrArg₂ (· * ·) (hA k) (hWl k)) hB)
    (Finset.sum_congr rfl fun k _ => congrArg₂ (· * ·) (hX k) (hWr k))

/-- An index of the output is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v26).slice (win0_5.rect t)).set ↔ _
  rw [View.set_slice_whole, Rect.mem_set_unit]
  exact Iff.rfl

/-- Every index of the output lies in the block of the point its row block names. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE OUTPUT ARRAY after the region: the layer of the arrays as the region finds them. -/
theorem final (c : Dev nD) :
    (dat0 (F := Ideal) V c).arrAt 5 cfg0.N
      = dense1 (V c main_v24) (V c main_arg0) (V c main_arg2) (V c main_arg4) (V c main_v25) :=
  (dat0 (F := Ideal) V c).arrAt_eq_of_cover 5 _ (fun t _ => flushed_eq V c t) cover

end Cert.Sage.Region0

end
-- ==== Proof.Region1.lean ====
/-
  What the second kernel region leaves in its output array.

  As in the first region, ten grid points; at point `t` the body is handed rows `10000·t … 10000·t + 9999` of the array
  of hidden-feature means and of the hidden features, the two 64×32 weight matrices and the bias row whole, and writes
  back the same rows of the 32-column output. What point `t` writes back is block `t` of the layer `dense2` of the whole
  arrays, the ten blocks cover the output, so the output array after the region is `dense2` of the arrays as the region
  found them.
-/
import proofs.«166108_j49503793054393_2_alg».proof.Proof.Gen.KernelIdeal.Frame
import proofs.«166108_j49503793054393_2_alg».proof.Proof.Dense2
import Idealize.ShloMosaic.Lib.Pipeline.Value

set_option maxRecDepth 16384

noncomputable section

namespace Cert.Sage.Region1

open Cert.KernelIdeal Cert.KernelIdeal.Gen Cert.Sage
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs move with the output, the matrices and the bias
    row stay at block 0, and the output's row block at point `t` is at most 9. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block of the output is some point's. -/
theorem idx_onto : ∀ (q0 : Fin 10), ∃ t : Fin cfg1.N, win1_5.index t = ![q0.val, 0] :=
  (by decide +kernel : ∀ (q0 : Fin 10), ∃ t : Fin grid1.N, win1_5.index t = ![q0.val, 0])

/-- WHAT POINT `t` WRITES BACK is block `t` of the layer of the arrays as the region finds them. -/
theorem flushed_eq (c : Dev nD) (t : Fin cfg1.N) :
    (dat1 (F := Ideal) V c).flushed 5 t = ((cfg1.win 5).blk t).view.read (Elt Ideal)
      (dense2 (V c main_v39) (V c main_v26) (V c main_arg5) (V c main_arg7) (V c main_v40)) := by
  show (cfg1.win 5).cut (grid1.coords t) ((dat1 (F := Ideal) V c).after 5 t) = _
  rw [after1_5]
  unfold out1_5
  rw [View.canon_unit_zero hz]
  simp only [View.ld_unit_zero (S := S10000x64) hz, View.ld_unit_zero (S := S64x32) hz, View.ld_unit_zero (S := S1x32) hz]
  obtain ⟨e00, e01, e10, e11, e20, e21, e30, e31, e40, e41, e51, e50⟩ := idx_facts t
  funext j
  obtain ⟨p, q, rfl⟩ : ∃ (p : Fin 10000) (q : Fin 32), j = ix2 p q := ⟨j 0, j 1, eq_ix2 j⟩
  refine (pay1_apply (iblk1 V c 0 t) (iblk1 V c 1 t) (iblk1 V c 2 t) (iblk1 V c 4 t) (iblk1 V c 3 t) p q).trans ?_
  have hA : ∀ k : Fin 64, iblk1 V c 0 t (ix2 p k)
      = V c main_v39 (ix2 ((((cfg1.win 5).blk t).view.emb (ix2 p q)) 0) k) := fun k => by
    show V c main_v39 (((cfg1.win 0).blk t).view.emb (ix2 p k)) = _
    refine congrArg (V c main_v39) (funext fun a => Fin.ext ?_)
    match a with
    | ⟨0, _⟩ => show win1_0.index t (0 : Fin 2) * 10000 + 1 * p.val = win1_5.index t (0 : Fin 2) * 10000 + 1 * p.val; omega
    | ⟨1, _⟩ => show win1_0.index t (1 : Fin 2) * 64 + 1 * k.val = k.val; omega
  have hX : ∀ k : Fin 64, iblk1 V c 1 t (ix2 p k)
      = V c main_v26 (ix2 ((((cfg1.win 5).blk t).view.emb (ix2 p q)) 0) k) := fun k => by
    show V c main_v26 (((cfg1.win 1).blk t).view.emb (ix2 p k)) = _
    refine congrArg (V c main_v26) (funext fun a => Fin.ext ?_)
    match a with
    | ⟨0, _⟩ => show win1_1.index t (0 : Fin 2) * 10000 + 1 * p.val = win1_5.index t (0 : Fin 2) * 10000 + 1 * p.val; omega
    | ⟨1, _⟩ => show win1_1.index t (1 : Fin 2) * 64 + 1 * k.val = k.val; omega
  have hWl : ∀ k : Fin 64, iblk1 V c 2 t (ix2 k q)
      = V c main_arg5 (ix2 k ((((cfg1.win 5).blk t).view.emb (ix2 p q)) 1)) := fun k => by
    show V c main_arg5 (((cfg1.win 2).blk t).view.emb (ix2 k q)) = _
    refine congrArg (V c main_arg5) (funext fun a => Fin.ext ?_)
    match a with
    | ⟨0, _⟩ => show win1_2.index t (0 : Fin 2) * 64 + 1 * k.val = k.val; omega
    | ⟨1, _⟩ => show win1_2.index t (1 : Fin 2) * 32 + 1 * q.val = win1_5.index t (1 : Fin 2) * 32 + 1 * q.val; omega
  have hWr : ∀ k : Fin 64, iblk1 V c 4 t (ix2 k q)
      = V c main_arg7 (ix2 k ((((cfg1.win 5).blk t).view.emb (ix2 p q)) 1)) := fun k => by
    show V c main_arg7 (((cfg1.win 4).blk t).view.emb (ix2 k q)) = _
    refine congrArg (V c main_arg7) (funext fun a => Fin.ext ?_)
    match a with
    | ⟨0, _⟩ => show win1_4.index t (0 : Fin 2) * 64 + 1 * k.val = k.val; omega
    | ⟨1, _⟩ => show win1_4.index t (1 : Fin 2) * 32 + 1 * q.val = win1_5.index t (1 : Fin 2) * 32 + 1 * q.val; omega
  have hB : iblk1 V c 3 t (ix2 0 q)
      = V c main_v40 (ix2 0 ((((cfg1.win 5).blk t).view.emb (ix2 p q)) 1)) := by
    show V c main_v40 (((cfg1.win 3).blk t).view.emb (ix2 0 q)) = _
    refine congrArg (V c main_v40) (funext fun a => Fin.ext ?_)
    match a with
    | ⟨0, _⟩ => show win1_3.index t (0 : Fin 2) * 1 + 1 * 0 = 0; omega
    | ⟨1, _⟩ => show win1_3.index t (1 : Fin 2) * 32 + 1 * q.val = win1_5.index t (1 : Fin 2) * 32 + 1 * q.val; omega
  show dense2At _ _ _ _ _ p q
    = dense2At (V c main_v39) (V c main_v26) (V c main_arg5) (V c main_arg7) (V c main_v40)
        ((((cfg1.win 5).blk t).view.emb (ix2 p q)) 0) ((((cfg1.win 5).blk t).view.emb (ix2 p q)) 1)
  unfold dense2At
  refine congrArg₂ (· + ·) (congrArg₂ (· + ·) (Finset.sum_congr rfl fun k _ => congrArg₂ (· * ·) (hA k) (hWl k)) hB)
    (Finset.sum_congr rfl fun k _ => congrArg₂ (· * ·) (hX k) (hWr k))

/-- An index of the output is in point `t`'s block iff each coordinate is in the block's range on its axis. -/
theorem mem_blk (t : Fin cfg1.N) (i : S100000x32.Idx) :
    i ∈ ((cfg1.win 5).blk t).view.set ↔ ∀ a : Fin 2, win1_5.index t a * S10000x32.size a ≤ (i a).val
      ∧ (i a).val < win1_5.index t a * S10000x32.size a + S10000x32.size a := by
  show i ∈ ((View.whole main_v41).slice (win1_5.rect t)).set ↔ _
  rw [View.set_slice_whole, Rect.mem_set_unit]
  exact Iff.rfl

/-- Every index of the output lies in the block of the point its row block names. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 32 ≤ (i 1).val ∧ (i 1).val < win1_5.index t (1 : Fin 2) * 32 + 32; omega

/-- THE OUTPUT ARRAY after the region: the layer of the arrays as the region finds them. -/
theorem final (c : Dev nD) :
    (dat1 (F := Ideal) V c).arrAt 5 cfg1.N
      = dense2 (V c main_v39) (V c main_v26) (V c main_arg5) (V c main_arg7) (V c main_v40) :=
  (dat1 (F := Ideal) V c).arrAt_eq_of_cover 5 _ (fun t _ => flushed_eq V c t) cover

end Cert.Sage.Region1

end
-- ==== Proof.KernelValue.lean ====
/-
  The result array of the idealized kernel program, as the network of its arguments.

  The last boundary's contents at the result buffer are what the second region's grid points wrote back: the second
  layer (`Region1.final`) of the arrays that region was entered with. Those are read back one boundary at a time. The
  second host stretch computed the mean of the first region's output from the edge rows and the reciprocal in-degree
  that the FIRST stretch had left in their buffers, and reshaped the second bias; it wrote neither the first region's
  output nor any argument. The first region's output is the first layer (`Region0.final`) of the arrays it was entered
  with, and the first host stretch computed those from the launch memory: the edge rows, the reciprocal clamped
  in-degree, the mean of the input features, the first bias as a row.
-/
import proofs.«166108_j49503793054393_2_alg».proof.Proof.Gen.KernelIdeal.Frame
import proofs.«166108_j49503793054393_2_alg».proof.Proof.Sage
import proofs.«166108_j49503793054393_2_alg».proof.Proof.Region0
import proofs.«166108_j49503793054393_2_alg».proof.Proof.Region1
import Idealize.ShloMosaic.Lib.StableHlo.Run

set_option maxRecDepth 16384

noncomputable section

namespace Cert.Sage.KValue

open Cert.KernelIdeal Cert.KernelIdeal.Gen Cert.Sage
open Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (ρ : Dev nD → PrngReg) (c : Dev nD)

/-! ## After the first host stretch -/

theorem W1_arg0 : W1 m ρ c (Proc.devRef .tc main_arg0) = m ((c : Thread nD τ).loc main_arg0) := by
  show StableHlo.after hostOps0 (W0 m ρ c) (Proc.devRef .tc main_arg0) = _
  after_results_simp <;> rfl
theorem W1_arg2 : W1 m ρ c (Proc.devRef .tc main_arg2) = m ((c : Thread nD τ).loc main_arg2) := by
  show StableHlo.after hostOps0 (W0 m ρ c) (Proc.devRef .tc main_arg2) = _
  after_results_simp <;> rfl
theorem W1_arg4 : W1 m ρ c (Proc.devRef .tc main_arg4) = m ((c : Thread nD τ).loc main_arg4) := by
  show StableHlo.after hostOps0 (W0 m ρ c) (Proc.devRef .tc main_arg4) = _
  after_results_simp <;> rfl
theorem W1_arg5 : W1 m ρ c (Proc.devRef .tc main_arg5) = m ((c : Thread nD τ).loc main_arg5) := by
  show StableHlo.after hostOps0 (W0 m ρ c) (Proc.devRef .tc main_arg5) = _
  after_results_simp <;> rfl
theorem W1_arg6 : W1 m ρ c (Proc.devRef .tc main_arg6) = m ((c : Thread nD τ).loc main_arg6) := by
  show StableHlo.after hostOps0 (W0 m ρ c) (Proc.devRef .tc main_arg6) = _
  after_results_simp <;> rfl
theorem W1_arg7 : W1 m ρ c (Proc.devRef .tc main_arg7) = m ((c : Thread nD τ).loc main_arg7) := by
  show StableHlo.after hostOps0 (W0 m ρ c) (Proc.devRef .tc main_arg7) = _
  after_results_simp <;> rfl

/-- The source row and the destination row of the edge list. -/
theorem W1_v1 : W1 m ρ c (Proc.devRef .tc main_v1) = srcRow (m ((c : Thread nD τ).loc main_arg1)) := by
  show StableHlo.after hostOps0 (W0 m ρ c) (Proc.devRef .tc main_v1) = _
  after_results_simp <;> rfl
theorem W1_v3 : W1 m ρ c (Proc.devRef .tc main_v3) = dstRow (m ((c : Thread nD τ).loc main_arg1)) := by
  show StableHlo.after hostOps0 (W0 m ρ c) (Proc.devRef .tc main_v3) = _
  after_results_simp <;> rfl
/-- The reciprocal clamped in-degree. -/
theorem W1_v11 : W1 m ρ c (Proc.devRef .tc main_v11) = invDeg (dstRow (m ((c : Thread nD τ).loc main_arg1))) := by
  show StableHlo.after hostOps0 (W0 m ρ c) (Proc.devRef .tc main_v11) = _
  after_results_simp <;> rfl
/-- The mean of the input features. -/
theorem W1_v24 : W1 m ρ c (Proc.devRef .tc main_v24)
    = meanMul (dstRow (m ((c : Thread nD τ).loc main_arg1))) (srcRow (m ((c : Thread nD τ).loc main_arg1)))
        (invDeg (dstRow (m ((c : Thread nD τ).loc main_arg1)))) (m ((c : Thread nD τ).loc main_arg0)) := by
  unfold meanMul nbrSum spread invDeg degMax ones dstRow srcRow
  show StableHlo.after hostOps0 (W0 m ρ c) (Proc.devRef .tc main_v24) = _
  after_results_simp <;> rfl
/-- The first bias as a row. -/
theorem W1_v25 : W1 m ρ c (Proc.devRef .tc main_v25) = biasRow1 (m ((c : Thread nD τ).loc main_arg3)) := by
  show StableHlo.after hostOps0 (W0 m ρ c) (Proc.devRef .tc main_v25) = _
  after_results_simp <;> rfl

/-! ## After the first region -/

/-- The first region's output: the first layer of the mean of the input features and the input features. -/
theorem W2_v26 : W2 m ρ c (Proc.devRef .tc main_v26)
    = dense1 (meanMul (dstRow (m ((c : Thread nD τ).loc main_arg1))) (srcRow (m ((c : Thread nD τ).loc main_arg1))) (invDeg (dstRow (m ((c : Thread nD τ).loc main_arg1)))) (m ((c : Thread nD τ).loc main_arg0))) (m ((c : Thread nD τ).loc main_arg0)) (m ((c : Thread nD τ).loc main_arg2)) (m ((c : Thread nD τ).loc main_arg4))
        (biasRow1 (m ((c : Thread nD τ).loc main_arg3))) := by
  refine (W2_arr m ρ c 5).trans ?_
  refine (Region0.final (V1 m ρ) c).trans ?_
  show dense1 (W1 m ρ c (Proc.devRef .tc main_v24)) (W1 m ρ c (Proc.devRef .tc main_arg0)) (W1 m ρ c (Proc.devRef .tc main_arg2))
    (W1 m ρ c (Proc.devRef .tc main_arg4)) (W1 m ρ c (Proc.devRef .tc main_v25)) = _
  rw [W1_v24, W1_arg0, W1_arg2, W1_arg4, W1_v25]

/-- The region writes its output only: the edge rows, the reciprocal in-degree and the arguments are as the first
    host stretch left them. -/
theorem W2_v1 : W2 m ρ c (Proc.devRef .tc main_v1) = srcRow (m ((c : Thread nD τ).loc main_arg1)) :=
  (W2_of_ne m ρ c main_v1 (by decide)).trans (W1_v1 m ρ c)
theorem W2_v3 : W2 m ρ c (Proc.devRef .tc main_v3) = dstRow (m ((c : Thread nD τ).loc main_arg1)) :=
  (W2_of_ne m ρ c main_v3 (by decide)).trans (W1_v3 m ρ c)
theorem W2_v11 : W2 m ρ c (Proc.devRef .tc main_v11) = invDeg (dstRow (m ((c : Thread nD τ).loc main_arg1))) :=
  (W2_of_ne m ρ c main_v11 (by decide)).trans (W1_v11 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)

/-! ## After the second host stretch -/

/-- The mean of the first region's output, from the edge rows and the reciprocal in-degree found in their buffers. -/
theorem W3_v39 : W3 m ρ c (Proc.devRef .tc main_v39)
    = meanMul (W2 m ρ c (Proc.devRef .tc main_v3)) (W2 m ρ c (Proc.devRef .tc main_v1)) (W2 m ρ c (Proc.devRef .tc main_v11))
        (W2 m ρ c (Proc.devRef .tc main_v26)) := by
  unfold meanMul nbrSum spread
  show StableHlo.after hostOps1 (W2 m ρ c) (Proc.devRef .tc main_v39) = _
  after_results_simp <;> rfl
/-- The second bias as a row. -/
theorem W3_v40 : W3 m ρ c (Proc.devRef .tc main_v40) = biasRow2 (W2 m ρ c (Proc.devRef .tc main_arg6)) := by
  unfold biasRow2
  show StableHlo.after hostOps1 (W2 m ρ c) (Proc.devRef .tc main_v40) = _
  after_results_simp <;> rfl
/-- The stretch writes neither the first region's output nor a weight matrix. -/
theorem W3_v26 : W3 m ρ c (Proc.devRef .tc main_v26) = W2 m ρ c (Proc.devRef .tc main_v26) := by
  show StableHlo.after hostOps1 (W2 m ρ c) (Proc.devRef .tc main_v26) = _
  after_results_simp <;> rfl
theorem W3_arg5 : W3 m ρ c (Proc.devRef .tc main_arg5) = W2 m ρ c (Proc.devRef .tc main_arg5) := by
  show StableHlo.after hostOps1 (W2 m ρ c) (Proc.devRef .tc main_arg5) = _
  after_results_simp <;> rfl
theorem W3_arg7 : W3 m ρ c (Proc.devRef .tc main_arg7) = W2 m ρ c (Proc.devRef .tc main_arg7) := by
  show StableHlo.after hostOps1 (W2 m ρ c) (Proc.devRef .tc main_arg7) = _
  after_results_simp <;> rfl

/-! ## The result -/

/-- THE RESULT BUFFER at the last boundary: the network of the launch memory's arguments, the mean as a product. -/
theorem W4_v41 : W4 m ρ c (Proc.devRef .tc main_v41)
    = sageMul (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  refine (Region1.final (V3 m ρ) c).trans ?_
  show dense2 (W3 m ρ c (Proc.devRef .tc main_v39)) (W3 m ρ c (Proc.devRef .tc main_v26)) (W3 m ρ c (Proc.devRef .tc main_arg5))
    (W3 m ρ c (Proc.devRef .tc main_arg7)) (W3 m ρ c (Proc.devRef .tc main_v40)) = _
  rw [W3_v39, W3_v26, W3_arg5, W3_arg7, W3_v40, W2_v3, W2_v1, W2_v11, W2_v26, W2_arg5, W2_arg7, W2_arg6]
  rfl

end Cert.Sage.KValue

end
-- ==== Proof.RefValue.lean ====
/-
  The idealized reference's result, as the network of its arguments with the mean spelt as a quotient.

  The reference computes, in order: the neighbour sum of the input features and the clamped in-degree, their quotient
  (the mean), the first layer (two 100000×64 by 64×64 products, the bias broadcast down the rows, the clamp at zero),
  then the same once more on the hidden features into 32 columns without the clamp. Read one stage at a time at an
  index, a whole-array product is the sum over the contracted index of row times column, and the broadcast bias is the
  bias entry of the column: each layer is `dense1` / `dense2` of its mean, its features, its weights and its bias row.
  The mean stages are, operation for operation, `meanDiv` of the edge rows: the gather and the scatter-adds are never
  opened.
-/
import proofs.«166108_j49503793054393_2_alg».proof.Proof.Gen.ReferenceIdeal.Read
import proofs.«166108_j49503793054393_2_alg».proof.Proof.Sage

noncomputable section

namespace Cert.Sage.RefValue

open Idealize.ShloMosaic Idealize.ShloMosaic.ValueIdx
open Cert.ReferenceIdeal Cert.ReferenceIdeal.Read

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64x32, .f32⟩ : BufTy).Contents (Elt Ideal))
  (x6 : (⟨S32, .f32⟩ : BufTy).Contents (Elt Ideal)) (x7 : (⟨S64x32, .f32⟩ : BufTy).Contents (Elt Ideal))

/-- The reference's first mean: the neighbour sum of the input features over the clamped in-degree. -/
theorem mean1 : val_main_v22 (F := Ideal) x0 x1
    = Cert.Sage.meanDiv (Cert.Sage.dstRow x1) (Cert.Sage.srcRow x1) (Cert.Sage.degMax (Cert.Sage.dstRow x1)) x0 := by
  unfold Cert.Sage.meanDiv Cert.Sage.nbrSum Cert.Sage.spread Cert.Sage.degMax Cert.Sage.ones Cert.Sage.dstRow Cert.Sage.srcRow
  simp only [val_main_v22, val_main_v13, val_main_v21, val_main_v20, val_main_v19, val_main_v17, val_main_v18, val_main_v16,
    val_main_v15, val_main_v14, val_main_v12, val_main_v11, val_main_v10, val_main_v9, val_main_v8, val_main_v7, val_main_v6,
    val_main_v5, val_main_v4, val_main_v3, val_main_v2, val_main_v1, val_main_v0, val_main_c, val_main_c_0, val_main_cst,
    val_main_cst_1, val_main_cst_2, val_main_cst_3]
  rfl

/-- The reference's second mean: the same of the hidden features. -/
theorem mean2 : val_main_v48 (F := Ideal) x0 x1 x2 x3 x4
    = Cert.Sage.meanDiv (Cert.Sage.dstRow x1) (Cert.Sage.srcRow x1) (Cert.Sage.degMax (Cert.Sage.dstRow x1))
        (val_main_v29 (F := Ideal) x0 x1 x2 x3 x4) := by
  unfold val_main_v48 val_main_v39 val_main_v36
  generalize val_main_v29 (F := Ideal) x0 x1 x2 x3 x4 = H
  unfold Cert.Sage.meanDiv Cert.Sage.nbrSum Cert.Sage.spread Cert.Sage.degMax Cert.Sage.ones Cert.Sage.dstRow Cert.Sage.srcRow
  simp only [val_main_v47, val_main_v46, val_main_v45, val_main_v43, val_main_v44, val_main_v42, val_main_v41, val_main_v40,
    val_main_v38, val_main_v37, val_main_v35, val_main_v34, val_main_v33, val_main_v32, val_main_v31, val_main_v30,
    val_main_v3, val_main_v2, val_main_v1, val_main_v0, val_main_c_4, val_main_c_5, val_main_cst_6, val_main_cst_7,
    val_main_cst_8, val_main_cst_9]
  rfl

/-- The reference's first layer. -/
theorem layer1 : val_main_v29 (F := Ideal) x0 x1 x2 x3 x4
    = Cert.Sage.dense1 (val_main_v22 (F := Ideal) x0 x1) x0 x2 x4 (Cert.Sage.biasRow1 x3) := by
  funext i
  rw [val_main_v29_apply, val_main_v28_apply, val_main_v26_apply, val_main_v23_apply, val_main_v27_apply, val_main_v25_apply,
    val_main_v24_apply, val_main_call0_v0_apply, val_main_call0_cst_apply]
  generalize val_main_v22 (F := Ideal) x0 x1 = A
  have hl : ∀ k : Fin 64, lidx_main_v23 i k = ix2 (i 0) k := fun k =>
    funext fun a => Fin.ext (by match a with | ⟨0, _⟩ => rfl | ⟨1, _⟩ => rfl)
  have hr : ∀ k : Fin 64, ridx_main_v23 i k = ix2 k (i 1) := fun k =>
    funext fun a => Fin.ext (by match a with | ⟨0, _⟩ => rfl | ⟨1, _⟩ => rfl)
  have hl' : ∀ k : Fin 64, lidx_main_v27 i k = ix2 (i 0) k := fun k =>
    funext fun a => Fin.ext (by match a with | ⟨0, _⟩ => rfl | ⟨1, _⟩ => rfl)
  have hr' : ∀ k : Fin 64, ridx_main_v27 i k = ix2 k (i 1) := fun k =>
    funext fun a => Fin.ext (by match a with | ⟨0, _⟩ => rfl | ⟨1, _⟩ => rfl)
  have hb : x3 (idx_main_v24 (idx_main_v25 i)) = Cert.Sage.biasRow1 x3 (ix2 0 (i 1)) :=
    (congrArg x3 (funext fun a => Fin.ext (by match a with | ⟨0, _⟩ => rfl))).trans (Cert.Sage.biasRow1_apply x3 (i 1)).symm
  show max ((∑ k : Fin 64, A (lidx_main_v23 i k) * x2 (ridx_main_v23 i k)) + x3 (idx_main_v24 (idx_main_v25 i))
      + ∑ k : Fin 64, x0 (lidx_main_v27 i k) * x4 (ridx_main_v27 i k)) (Ideal.ofBits .f32 0x00000000#32)
    = Cert.Sage.dense1At A x0 x2 x4 (Cert.Sage.biasRow1 x3) (i 0) (i 1)
  unfold Cert.Sage.dense1At
  rw [Ideal.ofBits_zero_f32]
  refine congrArg (fun z => max z (0 : EReal)) ?_
  refine congrArg₂ (· + ·) (congrArg₂ (· + ·) (Finset.sum_congr rfl fun k _ => congrArg₂ (· * ·) (congrArg A (hl k)) (congrArg x2 (hr k))) hb)
    (Finset.sum_congr rfl fun k _ => congrArg₂ (· * ·) (congrArg x0 (hl' k)) (congrArg x4 (hr' k)))

/-- The reference's second layer. -/
theorem layer2 : val_main_v54 (F := Ideal) x0 x1 x2 x3 x4 x5 x6 x7
    = Cert.Sage.dense2 (val_main_v48 (F := Ideal) x0 x1 x2 x3 x4) (val_main_v29 (F := Ideal) x0 x1 x2 x3 x4) x5 x7
        (Cert.Sage.biasRow2 x6) := by
  funext i
  rw [val_main_v54_apply, val_main_v52_apply, val_main_v49_apply, val_main_v53_apply, val_main_v51_apply, val_main_v50_apply]
  generalize val_main_v48 (F := Ideal) x0 x1 x2 x3 x4 = A
  generalize val_main_v29 (F := Ideal) x0 x1 x2 x3 x4 = H
  have hl : ∀ k : Fin 64, lidx_main_v49 i k = ix2 (i 0) k := fun k =>
    funext fun a => Fin.ext (by match a with | ⟨0, _⟩ => rfl | ⟨1, _⟩ => rfl)
  have hr : ∀ k : Fin 64, ridx_main_v49 i k = ix2 k (i 1) := fun k =>
    funext fun a => Fin.ext (by match a with | ⟨0, _⟩ => rfl | ⟨1, _⟩ => rfl)
  have hl' : ∀ k : Fin 64, lidx_main_v53 i k = ix2 (i 0) k := fun k =>
    funext fun a => Fin.ext (by match a with | ⟨0, _⟩ => rfl | ⟨1, _⟩ => rfl)
  have hr' : ∀ k : Fin 64, ridx_main_v53 i k = ix2 k (i 1) := fun k =>
    funext fun a => Fin.ext (by match a with | ⟨0, _⟩ => rfl | ⟨1, _⟩ => rfl)
  have hb : x6 (idx_main_v50 (idx_main_v51 i)) = Cert.Sage.biasRow2 x6 (ix2 0 (i 1)) :=
    (congrArg x6 (funext fun a => Fin.ext (by match a with | ⟨0, _⟩ => rfl))).trans (Cert.Sage.biasRow2_apply x6 (i 1)).symm
  show (∑ k : Fin 64, A (lidx_main_v49 i k) * x5 (ridx_main_v49 i k)) + x6 (idx_main_v50 (idx_main_v51 i))
      + ∑ k : Fin 64, H (lidx_main_v53 i k) * x7 (ridx_main_v53 i k)
    = Cert.Sage.dense2At A H x5 x7 (Cert.Sage.biasRow2 x6) (i 0) (i 1)
  unfold Cert.Sage.dense2At
  refine congrArg₂ (· + ·) (congrArg₂ (· + ·) (Finset.sum_congr rfl fun k _ => congrArg₂ (· * ·) (congrArg A (hl k)) (congrArg x5 (hr k))) hb)
    (Finset.sum_congr rfl fun k _ => congrArg₂ (· * ·) (congrArg H (hl' k)) (congrArg x7 (hr' k)))

/-- THE REFERENCE'S RESULT is the network of the arguments, the mean as a quotient. -/
theorem value : val_main_v54 (F := Ideal) x0 x1 x2 x3 x4 x5 x6 x7 = Cert.Sage.sageDiv x0 x1 x2 x3 x4 x5 x6 x7 := by
  unfold Cert.Sage.sageDiv
  rw [layer2, mean2, layer1, mean1]

end Cert.Sage.RefValue

end
-- ==== Proof.lean ====
/-
  Two GraphSAGE layers with mean aggregation: a kernel program against its plain reference, on the extended reals.

  Both programs compute `h = relu (mean x · W1l + b1 + x · W1r)` and `out = mean h · W2l + b2 + h · W2r` over 100,000 nodes and
  1,600,000 edges, where `mean y` at node `r` is the sum of `y`'s rows at the sources of the edges into `r`, scaled by the
  in-degree of `r` clamped below at one. The reference does everything with whole-array host operations and DIVIDES the
  neighbour sum by the clamped in-degree. The kernel program computes the reciprocal of the clamped in-degree once on the
  host, MULTIPLIES each neighbour sum by it, and runs the dense part of each layer (two matrix products, the bias, for
  the first layer the clamp at zero) in a kernel region over ten blocks of 10,000 rows, rounding the matrix operands to
  a narrower float format on the way in.

  At the ideal instance a change of float format is the identity and a matrix product is the plain sum over the
  contracted index, so each region's output array is the layer's formula of the arrays the region was entered with, row
  block by row block (`Region0.final`, `Region1.final`); read back through the four segment boundaries, the kernel
  program's result is the network with the mean as a product (`KValue.W4_v41`), and the reference's result is the network
  with the mean as a quotient (`RefValue.value`). The two means are one function of the edges and the features: on the
  extended reals `x · (1 / y) = x / y` for every `x` as soon as `y ≠ 0`, and `y = max (in-degree) 1 ≥ 1`
  (`meanMul_eq_meanDiv`). The gather and the scatter-adds are the same operations of the same operands on both sides and
  are never opened, and no finiteness of the inputs is used: the equation holds at the infinities too.

  The idealization rewrote nothing, so `preserves` is trivial; the kernel programs' frames are the generated ones, and
  the reference's frame is its generated run with the result dropped.
-/
import proofs.«166108_j49503793054393_2_alg».proof.Defs
import proofs.«166108_j49503793054393_2_alg».proof.Proof.Gen.Kernel
import proofs.«166108_j49503793054393_2_alg».proof.Proof.Gen.Kernel.Skeleton
import proofs.«166108_j49503793054393_2_alg».proof.Proof.Gen.Kernel.Launch
import proofs.«166108_j49503793054393_2_alg».proof.Proof.Gen.Kernel.Points
import proofs.«166108_j49503793054393_2_alg».proof.Proof.Gen.Kernel.Frame
import proofs.«166108_j49503793054393_2_alg».proof.Proof.Gen.KernelIdeal
import proofs.«166108_j49503793054393_2_alg».proof.Proof.Gen.KernelIdeal.Skeleton
import proofs.«166108_j49503793054393_2_alg».proof.Proof.Gen.KernelIdeal.Launch
import proofs.«166108_j49503793054393_2_alg».proof.Proof.Gen.KernelIdeal.Points
import proofs.«166108_j49503793054393_2_alg».proof.Proof.Gen.KernelIdeal.Frame
import proofs.«166108_j49503793054393_2_alg».proof.Proof.Gen.ReferenceIdeal
import proofs.«166108_j49503793054393_2_alg».proof.Proof.Gen.Pre_finite_inputs
import proofs.«166108_j49503793054393_2_alg».proof.Proof.Gen.ReferenceIdeal.Run
import proofs.«166108_j49503793054393_2_alg».proof.Proof.Gen.ReferenceIdeal.Read
import proofs.«166108_j49503793054393_2_alg».proof.Proof.Sage
import proofs.«166108_j49503793054393_2_alg».proof.Proof.KernelRun
import proofs.«166108_j49503793054393_2_alg».proof.Proof.KernelValue
import proofs.«166108_j49503793054393_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the network of the arguments in their result arrays: the kernel program's with
    the mean as a product with the reciprocal clamped in-degree, the reference's with the mean as a quotient by it —
    one function. -/
theorem algebraic : Cert.algebraic_KernelIdeal_ReferenceIdeal := by
  intro m ρ m' ρ' _ hagree
  refine ⟨fun c => Cert.Sage.sageMul (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Gen.mem_uc Cert.KernelIdeal.main_v41 (by decide))).trans (Cert.Sage.KValue.W4_v41 m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c),
       (h c _ (Cert.KernelIdeal.Gen.mem_uc Cert.KernelIdeal.main_arg7 (by decide))).trans (Cert.KernelIdeal.Gen.W4_main_arg7 m ρ c)⟩)
      (Cert.Sage.KRun.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v54_eq, Cert.Sage.RefValue.value, (hagree c).1, (hagree c).2.1, (hagree c).2.2.1,
      (hagree c).2.2.2.1, (hagree c).2.2.2.2.1, (hagree c).2.2.2.2.2.1, (hagree c).2.2.2.2.2.2.1, (hagree c).2.2.2.2.2.2.2]
    exact (Cert.Sage.sageMul_eq_sageDiv _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
